-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4096x256 : Shape := ⟨2, ![4096, 256]⟩
abbrev S1x1 : Shape := ⟨2, ![1, 1]⟩
abbrev S4096 : Shape := ⟨1, ![4096]⟩
abbrev S4096x1 : Shape := ⟨2, ![4096, 1]⟩
abbrev S1 : Shape := ⟨1, ![1]⟩
abbrev S256 : Shape := ⟨1, ![256]⟩
abbrev S1x256 : Shape := ⟨2, ![1, 256]⟩
abbrev S_ : Shape := ⟨0, ![]⟩

abbrev nBuf : Space → Nat
  | .hbm => 5
  | .vmem => 4
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S1x1, .f32⟩
  | .hbm, ⟨4, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  reduces_S4096x1_S1 : S4096x1.Reduces [0] S1
  shapeCasts_S1_S1x1 : S1.ShapeCasts S1x1
  reduces_S4096x256_S256 : S4096x256.Reduces [0] S256
  shapeCasts_S256_S1x256 : S256.ShapeCasts S1x256
  broadcasts_S1x256_S4096x256 : S1x256.Broadcasts S4096x256
  broadcasts_S1x1_S4096x1 : S1x1.Broadcasts S4096x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S256x4096 : Shape := ⟨2, ![256, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 57
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S4096, .f32⟩
  | .hbm, ⟨11, _⟩ => ⟨S4096x256, .f32⟩
  | .hbm, ⟨12, _⟩ => ⟨S_, .f32⟩
  | .hbm, ⟨13, _⟩ => ⟨S4096, .f32⟩
  | .hbm, ⟨14, _⟩ => ⟨S256x4096, .f32⟩
  | .hbm, ⟨15, _⟩ => ⟨S4096x4096, .f32⟩
  | .hbm, ⟨16, _⟩ => ⟨S4096x1, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .i32⟩
  | .hbm, ⟨26, _⟩ => ⟨S4096x4096, .i32⟩
  | .hbm, ⟨27, _⟩ => ⟨S_, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  transposes_S4096x256_S256x4096_1_0 : S4096x256.Transposes [1, 0] S256x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.Spec.lean ====
/-
  The distance-InfoNCE loss as a function of three matrices over the extended reals, in two arrangements, and the law
  that joins them.

  For matrices A, P, N with rows indexed by r and columns by k write
    d(X, Y)(r) = Σ_k (X r k − Y r k)²        (the squared distance between rows r of X and Y)
    q(A)(r)    = Σ_k (A r k)²                 (the squared norm of row r)
  One arrangement forms, for every pair of rows (r, j), the squared distance between rows r and j of A in the expanded
  form q(r) + q(j) − 2·Σ_k A r k · A j k, overwrites the diagonal entry (r, r) by d(A, N)(r), and sums row r over j
  (`rowSumMasked`). The other never forms the pairs (`rowSumCollapsed`):
    n·q(r) + Σ_j q(j) − 2·Σ_k A r k · (Σ_j A j k) + d(A, N)(r),
  n the number of rows. They agree when the entries are real numbers: the diagonal entry that was overwritten,
  q(r) + q(r) − 2·Σ_k (A r k)², is zero, so adding it back to the masked sum gives the full double sum, which
  factors through the column sums of A by exchanging the two summations. The cancellation is why the entries must be
  finite: with an infinite entry the diagonal term is not zero on the extended reals.

  From the row sums S and the distances to the positives pd, both arrangements go on in the same way (`meanLoss`):
  the mean over the rows of −log( e^{−pd/τ} / (e^{−pd/τ} + e^{−S/τ} + ε) ).
-/
import Idealize.ShloMosaic.PureOps.Ideal
import Idealize.ShloMosaic.Lib.ValueIdx

noncomputable section

namespace Cert.InfoNCE

open Idealize.ShloMosaic

/-- The squared distance between rows `r` of `A` and of `B`. -/
def sqDist {R C : ℕ} (A B : Fin R → Fin C → EReal) (r : Fin R) : EReal :=
  ∑ k : Fin C, (A r k - B r k) * (A r k - B r k)

/-- The squared norm of row `r` of `A`. -/
def sqNorm {R C : ℕ} (A : Fin R → Fin C → EReal) (r : Fin R) : EReal :=
  ∑ k : Fin C, A r k * A r k

/-- The row sum of the pairwise squared distances with the diagonal overwritten, collapsed through the column sums of
    `A`: `n` stands for the number of rows and `two` for the factor 2, each as the extended real a float literal denotes. -/
def rowSumCollapsed {R C : ℕ} (n two : EReal) (A N : Fin R → Fin C → EReal) (r : Fin R) : EReal :=
  ((n * sqNorm A r + ∑ j : Fin R, sqNorm A j) - two * ∑ k : Fin C, A r k * ∑ j : Fin R, A j k) + sqDist A N r

/-- The same row sum formed pair by pair: entry `(r, j)` is the expanded squared distance between rows `r` and `j` of
    `A`, the diagonal entry the squared distance between rows `j` of `A` and of `N`. -/
def rowSumMasked {R C : ℕ} (two : EReal) (A N : Fin R → Fin C → EReal) (r : Fin R) : EReal :=
  ∑ j : Fin R, if r = j then sqDist A N j else (sqNorm A r + sqNorm A j) - two * ∑ k : Fin C, A r k * A j k

/-- The mean over the rows of `−log( e^{−pd/half} / (e^{−pd/half} + e^{−S/half} + eps) )`, the division by the number of
    rows `n` last. -/
def meanLoss {R : ℕ} (half eps n : EReal) (pd S : Fin R → EReal) : EReal :=
  Ideal.div (∑ r : Fin R, -(Ideal.log (Ideal.div (Ideal.exp (Ideal.div (-(pd r)) half))
    ((Ideal.exp (Ideal.div (-(pd r)) half) + Ideal.exp (Ideal.div (-(S r)) half)) + eps)))) n

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals. The masked sum is the full sum of the expanded distances plus the correction at `j = r`; there
    the expanded distance is `q(r) + q(r) − 2·q(r) = 0`; and `Σ_j Σ_k a r k · a j k = Σ_k a r k · Σ_j a j k`. -/
theorem real_collapse {R C : ℕ} (a n : Fin R → Fin C → ℝ) (r : Fin R) :
    ((((R : ℝ) * (∑ k : Fin C, a r k * a r k) + ∑ j : Fin R, ∑ k : Fin C, a j k * a j k)
        - 2 * ∑ k : Fin C, a r k * ∑ j : Fin R, a j k) + ∑ k : Fin C, (a r k - n r k) * (a r k - n r k))
      = ∑ j : Fin R, if r = j then ∑ k : Fin C, (a j k - n j k) * (a j k - n j k)
          else ((∑ k : Fin C, a r k * a r k) + ∑ k : Fin C, a j k * a j k) - 2 * ∑ k : Fin C, a r k * a j k := by
  have hsplit : ∀ j : Fin R, (if r = j then ∑ k : Fin C, (a j k - n j k) * (a j k - n j k)
          else ((∑ k : Fin C, a r k * a r k) + ∑ k : Fin C, a j k * a j k) - 2 * ∑ k : Fin C, a r k * a j k)
      = (((∑ k : Fin C, a r k * a r k) + ∑ k : Fin C, a j k * a j k) - 2 * ∑ k : Fin C, a r k * a j k)
        + (if r = j then (∑ k : Fin C, (a j k - n j k) * (a j k - n j k))
            - (((∑ k : Fin C, a r k * a r k) + ∑ k : Fin C, a j k * a j k) - 2 * ∑ k : Fin C, a r k * a j k) else 0) := by
    intro j; split_ifs <;> ring
  have hcomm : ∑ j : Fin R, ∑ k : Fin C, a r k * a j k = ∑ k : Fin C, a r k * ∑ j : Fin R, a j k := by
    rw [Finset.sum_comm]; exact Finset.sum_congr rfl fun k _ => (Finset.mul_sum _ _ _).symm
  simp only [hsplit]
  rw [Finset.sum_add_distrib, Finset.sum_ite_eq, if_pos (Finset.mem_univ r), Finset.sum_sub_distrib,
    Finset.sum_add_distrib, Finset.sum_const, Finset.card_univ, Fintype.card_fin, nsmul_eq_mul, ← Finset.mul_sum, hcomm]
  ring

/-- THE LAW on the extended reals: for matrices of real numbers, with `n` the number of rows and `two` the number 2, the
    collapsed row sum is the masked one. Both sides are the coercions of the two sides of `real_collapse`. -/
theorem rowSum_collapse {R C : ℕ} (n two : EReal) (hn : n = (((R : ℕ) : ℝ) : EReal)) (h2 : two = ((2 : ℝ) : EReal))
    (A N : Fin R → Fin C → EReal) (hA : ∀ r k, ∃ x : ℝ, A r k = (x : EReal)) (hN : ∀ r k, ∃ x : ℝ, N r k = (x : EReal))
    (r : Fin R) : rowSumCollapsed n two A N r = rowSumMasked two A N r := by
  choose a ha using hA
  choose b hb using hN
  obtain rfl : A = fun r k => (a r k : EReal) := funext fun r => funext fun k => ha r k
  obtain rfl : N = fun r k => (b r k : EReal) := funext fun r => funext fun k => hb r k
  subst hn h2
  have hite : ∀ (j : Fin R) (x y : ℝ), (if r = j then (x : EReal) else (y : EReal)) = ((if r = j then x else y : ℝ) : EReal) :=
    fun j x y => by split_ifs <;> rfl
  unfold rowSumCollapsed rowSumMasked sqDist sqNorm
  simp only [← EReal.coe_sub, ← EReal.coe_mul, ← coe_sum, ← EReal.coe_add, hite]
  exact congrArg _ (real_collapse a b r)

/-! ## The loss of three 4096 × 256 arrays -/

/-- An array indexed by pairs, as a matrix of rows and columns. -/
def mat {R C : ℕ} (x : (⟨2, ![R, C]⟩ : Shape).Idx → EReal) : Fin R → Fin C → EReal := fun r k => x (ValueIdx.ix2 r k)

theorem mat_apply {R C : ℕ} (x : (⟨2, ![R, C]⟩ : Shape).Idx → EReal) (r : Fin R) (k : Fin C) :
    mat x r k = x (ValueIdx.ix2 r k) := rfl

/-- The f32 word of 4096.0 denotes the real number 4096, the number of rows. -/
theorem ofBits_rows : Ideal.ofBits .f32 0x45800000#32 = ((((4096 : ℕ) : ℝ)) : EReal) := by
  simp [Ideal.ofBits, Ideal.ieee, -EReal.coe_mul]; norm_num

/-- The f32 word of 2.0 denotes the real number 2. -/
theorem ofBits_two : Ideal.ofBits .f32 0x40000000#32 = ((2 : ℝ) : EReal) := by
  simp [Ideal.ofBits, Ideal.ieee, -EReal.coe_mul]; norm_num

/-- The loss of anchors `a`, positives `p`, negatives `n` with the row sums collapsed through the column sums; the
    temperature 0.5, the ε and the two counts 4096 are the extended reals their f32 words denote. -/
def lossCollapsed (a p n : (⟨2, ![4096, 256]⟩ : Shape).Idx → EReal) : EReal :=
  meanLoss (Ideal.ofBits .f32 0x3F000000#32) (Ideal.ofBits .f32 0x3089705F#32) (Ideal.ofBits .f32 0x45800000#32)
    (sqDist (mat a) (mat p))
    (rowSumCollapsed (Ideal.ofBits .f32 0x45800000#32) (Ideal.ofBits .f32 0x40000000#32) (mat a) (mat n))

/-- The same loss with the row sums formed pair by pair and the diagonal overwritten. -/
def lossMasked (a p n : (⟨2, ![4096, 256]⟩ : Shape).Idx → EReal) : EReal :=
  meanLoss (Ideal.ofBits .f32 0x3F000000#32) (Ideal.ofBits .f32 0x3089705F#32) (Ideal.ofBits .f32 0x45800000#32)
    (sqDist (mat a) (mat p))
    (rowSumMasked (Ideal.ofBits .f32 0x40000000#32) (mat a) (mat n))

/-- The two arrangements of the loss agree when the anchors and the negatives are real numbers (the positives enter
    only through the shared tail, so nothing is asked of them). -/
theorem loss_eq (a p n : (⟨2, ![4096, 256]⟩ : Shape).Idx → EReal)
    (ha : ∀ i, ∃ x : ℝ, a i = (x : EReal)) (hn : ∀ i, ∃ x : ℝ, n i = (x : EReal)) :
    lossCollapsed a p n = lossMasked a p n := by
  unfold lossCollapsed lossMasked
  exact congrArg _ (funext fun r => rowSum_collapse _ _ ofBits_rows ofBits_two (mat a) (mat n)
    (fun r k => ha _) (fun r k => hn _) r)

end Cert.InfoNCE

end
-- ==== Proof.Finite.lean ====
/-
  Finiteness of the three argument arrays, read off the precondition.

  The precondition computes, for each argument array x, the conjunction over all entries of |x i| < +∞, where
  |x| = max x (−x) and +∞ is what the f32 word 0x7F800000 denotes, and joins the three conjunctions by "and". On the
  extended reals max x (−x) < ⊤ fails at x = ⊤ (the maximum is ⊤) and at x = ⊥ (−⊥ = ⊤, so the maximum is ⊤ again), and
  so holds only at the coercion of a real number. Hence the precondition being 1 makes every entry of every argument a
  real number.
-/
import proofs.«167277_j88639535055182_2_alg».proof.Pre_finite_inputs
import Idealize.ShloMosaic.PureOps.Ideal
import Idealize.ShloMosaic.PureOps.Ideal.Laws
import Idealize.ShloMosaic.Lib.ReduceAll
import Idealize.ShloMosaic.Lib.ValueIdx

namespace Cert.Finite

open Idealize.ShloMosaic

/-- The f32 word with every exponent bit set, sign and fraction zero, denotes +∞. -/
theorem ofBits_inf : Ideal.ofBits .f32 0x7F800000#32 = (⊤ : EReal) := by
  simp [Ideal.ofBits, Ideal.ieee]

/-- An extended real whose absolute value max x (−x) is strictly below +∞ is a real number: at ⊤ the maximum is ⊤, and
    at ⊥ it is −⊥ = ⊤. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The shape of a scalar has one index. -/
instance : Subsingleton Cert.Pre_finite_inputs.S_.Idx := ⟨fun _ _ => funext fun d => d.elim0⟩

/-- If the conjunction over all entries of |v i| < +∞ is 1, every entry of v is a real number. -/
theorem all_real [Cert.Pre_finite_inputs.Facts] (v : FVec Ideal Cert.Pre_finite_inputs.S4096x256 .f32)
    (h : Host.reduce IntOp.andi
        (cmpf .olt (Host.absf v)
          (broadcastInDim Cert.Pre_finite_inputs.S4096x256 ![] Cert.Pre_finite_inputs.Facts.bcast_S_S4096x256
            (constant (F := Ideal) Cert.Pre_finite_inputs.S_ .f32 0x7F800000#32)))
        (constantI Cert.Pre_finite_inputs.S_ 1 1#1)
        Cert.Pre_finite_inputs.Facts.reducesTo_S4096x256_S_d0_1 Cert.Pre_finite_inputs.Facts.h_S_ ValueIdx.ix0 = 1#1)
    (i : Cert.Pre_finite_inputs.S4096x256.Idx) : ∃ x : ℝ, v i = (x : EReal) :=
  real_of_abs_lt_inf (v i) (Host.reduce_andi_all _ _ _ _ _ h i)

/-- The precondition at the extended reals makes every entry of the three arguments a real number: the result 1 of the
    two "and"s gives 1 for each of the three conjunctions over the entries. -/
theorem real_of_finite_inputs [Cert.Pre_finite_inputs.Facts]
    (a p n : FVec Ideal Cert.Pre_finite_inputs.S4096x256 .f32)
    (h : Cert.Pre_finite_inputs.fn (F := Ideal) a p n = fun _ => 1#1) :
    (∀ i, ∃ x : ℝ, a i = (x : EReal)) ∧ (∀ i, ∃ x : ℝ, p i = (x : EReal)) ∧ (∀ i, ∃ x : ℝ, n i = (x : EReal)) := by
  have h0 := congrFun h ValueIdx.ix0
  dsimp only [Cert.Pre_finite_inputs.fn, andi] at h0
  obtain ⟨hap, hn⟩ := IntOp.andi_eq_one.1 h0
  obtain ⟨ha, hp⟩ := IntOp.andi_eq_one.1 hap
  exact ⟨all_real a ha, all_real p hp, all_real n hn⟩

end Cert.Finite
-- ==== Proof.LibIdx1.lean ====
/-
  A sum over the indices of a rank-one array is the sum over its one coordinate (the rank-one companion of the
  library's `sum_idx2`).
-/
import Idealize.ShloMosaic.Lib.ValueIdx

noncomputable section

open scoped BigOperators

namespace Cert.Idx1

open Idealize.ShloMosaic Idealize.ShloMosaic.ValueIdx

/-- A rank-one index is its one coordinate. -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Idx1

end
-- ==== Proof.RefValue.lean ====
/-
  The reference program's result, read over the extended reals, is the distance-InfoNCE loss in its pair-by-pair
  arrangement (\`Cert.InfoNCE.lossMasked\`) of the three argument arrays.

  The program is followed one stage at a time, each stage read at an entry (r), (r, k) or (r, j) with r, j rows and k a
  column: the three row sums are the squared distances d(A, P)(r), d(A, N)(r) and the squared norm q(A)(r); the
  contraction of A with its transpose at (r, j) is Σ_k A r k · A j k; the two broadcasts of q give q(r) + q(j) at (r, j);
  the comparison of the two coordinate counters is the diagonal r = j; the select puts d(A, N)(j) on the diagonal; the
  row sum over j is the masked row sum; and the tail is the mean over the rows of
  −log( e^{−pd/τ} / (e^{−pd/τ} + e^{−S/τ} + ε) ). Every sum in the program starts from the zero word, which adds nothing.
-/
import proofs.«167277_j88639535055182_2_alg».proof.Proof.Gen.ReferenceIdeal.Read
import proofs.«167277_j88639535055182_2_alg».proof.Proof.Spec
import proofs.«167277_j88639535055182_2_alg».proof.Proof.LibIdx1
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.InfoNCE

/-- The three argument arrays and every 4096 × 256 stage: a function of the pair index into the extended reals. -/
abbrev RefArg := (⟨S4096x256, .f32⟩ : BufTy).Contents (Elt Ideal)

/-! ## The index maps at coordinates -/

/-- Entry k of row r, as the row sum of a 4096 × 256 array reads it. -/
theorem idx_v2 (r : Fin 4096) (k : Fin 256) : idx_main_v2 (ix1 r) k = ix2 r k :=
  funext fun a => Fin.ext (by match a with | ⟨0, _⟩ => rfl | ⟨1, _⟩ => rfl)
theorem idx_v5 (r : Fin 4096) (k : Fin 256) : idx_main_v5 (ix1 r) k = ix2 r k :=
  funext fun a => Fin.ext (by match a with | ⟨0, _⟩ => rfl | ⟨1, _⟩ => rfl)
theorem idx_v7 (r : Fin 4096) (k : Fin 256) : idx_main_v7 (ix1 r) k = ix2 r k :=
  funext fun a => Fin.ext (by match a with | ⟨0, _⟩ => rfl | ⟨1, _⟩ => rfl)
/-- The contraction at (r, j) reads its left operand at (r, k) … -/
theorem lidx_v9 (r j : Fin 4096) (k : Fin 256) : lidx_main_v9 (ix2 r j) k = ix2 r k :=
  funext fun a => Fin.ext (by match a with | ⟨0, _⟩ => rfl | ⟨1, _⟩ => rfl)
/-- … and the transposed right operand at (k, j), which is the array at (j, k). -/
theorem ridx_v9 (r j : Fin 4096) (k : Fin 256) : idx_main_v8 (ridx_main_v9 (ix2 r j) k) = ix2 j k :=
  funext fun a => Fin.ext (by match a with | ⟨0, _⟩ => rfl | ⟨1, _⟩ => rfl)
/-- The column broadcast of a row vector reads entry r at (r, j) … -/
theorem idx_v12 (r j : Fin 4096) : idx_main_v10 (idx_main_v12 (ix2 r j)) = ix1 r :=
  funext fun a => Fin.ext (by match a with | ⟨0, _⟩ => rfl)
/-- … and the row broadcast reads entry j. -/
theorem idx_v13 (r j : Fin 4096) : idx_main_v11 (idx_main_v13 (ix2 r j)) = ix1 j :=
  funext fun a => Fin.ext (by match a with | ⟨0, _⟩ => rfl)
theorem idx_call0 (r j : Fin 4096) : idx_main_v23 (idx_main_call0_v0 (ix2 r j)) = ix1 j :=
  funext fun a => Fin.ext (by match a with | ⟨0, _⟩ => rfl)
/-- Entry j of row r, as the row sum of the 4096 × 4096 array reads it. -/
theorem idx_v25 (r j : Fin 4096) : idx_main_v25 (ix1 r) j = ix2 r j :=
  funext fun a => Fin.ext (by match a with | ⟨0, _⟩ => rfl | ⟨1, _⟩ => rfl)

/-! ## The three row sums over the columns -/

/-- The row sum of (A − P)² is the squared distance between rows r of A and P. -/
theorem v2_eq (x0 x1 : RefArg) (r : Fin 4096) :
    val_main_v2 (F := Ideal) x0 x1 (ix1 r) = sqDist (mat x0) (mat x1) r := by
  rw [val_main_v2_apply, val_main_cst_apply, Ideal.ofBits_def, Ideal.ofBits_zero_f32, zero_add]
  unfold sqDist
  refine Finset.sum_congr rfl fun k _ => ?_
  rw [idx_v2, val_main_v1_apply, val_main_v0_apply, Ideal.mulf_def, Ideal.subf_def]
  rfl

/-- The row sum of (A − N)² is the squared distance between rows r of A and N. -/
theorem v5_eq (x0 x2 : RefArg) (r : Fin 4096) :
    val_main_v5 (F := Ideal) x0 x2 (ix1 r) = sqDist (mat x0) (mat x2) r := by
  rw [val_main_v5_apply, val_main_cst_0_apply, Ideal.ofBits_def, Ideal.ofBits_zero_f32, zero_add]
  unfold sqDist
  refine Finset.sum_congr rfl fun k _ => ?_
  rw [idx_v5, val_main_v4_apply, val_main_v3_apply, Ideal.mulf_def, Ideal.subf_def]
  rfl

/-- The row sum of A² is the squared norm of row r of A. -/
theorem v7_eq (x0 : RefArg) (r : Fin 4096) :
    val_main_v7 (F := Ideal) x0 (ix1 r) = sqNorm (mat x0) r := by
  rw [val_main_v7_apply, val_main_cst_1_apply, Ideal.ofBits_def, Ideal.ofBits_zero_f32, zero_add]
  unfold sqNorm
  refine Finset.sum_congr rfl fun k _ => ?_
  rw [idx_v7, val_main_v6_apply, Ideal.mulf_def]
  rfl

/-! ## The pairwise entries -/

/-- The contraction of A with its transpose at (r, j) is the inner product of rows r and j. -/
theorem v9_eq (x0 : RefArg) (r j : Fin 4096) :
    val_main_v9 (F := Ideal) x0 (ix2 r j) = ∑ k : Fin 256, mat x0 r k * mat x0 j k := by
  rw [val_main_v9_apply]
  refine Finset.sum_congr rfl fun k _ => ?_
  rw [lidx_v9, val_main_v8_apply, ridx_v9]
  rfl

/-- Entry (r, j) before the diagonal is overwritten: q(r) + q(j) − 2 · Σ_k A r k · A j k. -/
theorem v17_eq (x0 : RefArg) (r j : Fin 4096) :
    val_main_v17 (F := Ideal) x0 (ix2 r j)
      = (sqNorm (mat x0) r + sqNorm (mat x0) j)
        - Ideal.ofBits .f32 0x40000000#32 * ∑ k : Fin 256, mat x0 r k * mat x0 j k := by
  rw [val_main_v17_apply, val_main_v14_apply, val_main_v16_apply, val_main_v12_apply, val_main_v10_apply, idx_v12,
    val_main_v13_apply, val_main_v11_apply, idx_v13, v7_eq, v7_eq, val_main_v15_apply, val_main_cst_2_apply,
    v9_eq, Ideal.ofBits_def, Ideal.subf_def, Ideal.addf_def, Ideal.mulf_def]

/-- The two coordinate counters agree exactly on the diagonal: both are below 2³², where the 32-bit words of two
    numbers are equal only if the numbers are. -/
theorem v22_eq (r j : Fin 4096) :
    val_main_v22 (F := Ideal) (ix2 r j) = if r = j then 1#1 else 0#1 := by
  rw [val_main_v22_apply, val_main_v21_apply, val_main_v18_apply, val_main_v19_apply, val_main_v20_apply,
    val_main_c_apply]
  show IntOp.cmpi .eq (IntOp.addi (BitVec.ofNat 32 r.val) 0#32) (BitVec.ofNat 32 j.val) = _
  unfold IntOp.cmpi IntOp.addi
  rw [BitVec.add_zero]
  by_cases h : r = j
  · subst h
    rw [if_pos rfl]
    simp
  · rw [if_neg h]
    have hne : ¬ BitVec.ofNat 32 r.val = BitVec.ofNat 32 j.val := by
      intro hh
      have h2 := congrArg BitVec.toNat hh
      rw [BitVec.toNat_ofNat, BitVec.toNat_ofNat, Nat.mod_eq_of_lt (by have := r.isLt; omega),
        Nat.mod_eq_of_lt (by have := j.isLt; omega)] at h2
      exact h (Fin.ext h2)
    rw [beq_eq_false_iff_ne.mpr hne]
    rfl

/-- The array that the select reads on the diagonal: d(A, N)(j) in column j, whatever the row. -/
theorem call0_eq (x0 x2 : RefArg) (r j : Fin 4096) :
    val_main_call0_v0 (F := Ideal) x0 x2 (ix2 r j) = sqDist (mat x0) (mat x2) j := by
  rw [val_main_call0_v0_apply, val_main_v23_apply, idx_call0, v5_eq]

/-- Entry (r, j) after the select: d(A, N)(j) on the diagonal, the expanded squared distance off it. -/
theorem v24_eq (x0 x2 : RefArg) (r j : Fin 4096) :
    val_main_v24 (F := Ideal) x0 x2 (ix2 r j)
      = if r = j then sqDist (mat x0) (mat x2) j
        else (sqNorm (mat x0) r + sqNorm (mat x0) j)
          - Ideal.ofBits .f32 0x40000000#32 * ∑ k : Fin 256, mat x0 r k * mat x0 j k := by
  rw [val_main_v24_apply, v22_eq, call0_eq, v17_eq]
  by_cases h : r = j
  · rw [if_pos h, if_pos h, select_one]
  · rw [if_neg h, if_neg h, select_zero]

/-- The row sum over j of the masked entries. -/
theorem v25_eq (x0 x2 : RefArg) (r : Fin 4096) :
    val_main_v25 (F := Ideal) x0 x2 (ix1 r)
      = rowSumMasked (Ideal.ofBits .f32 0x40000000#32) (mat x0) (mat x2) r := by
  rw [val_main_v25_apply, val_main_cst_3_apply, Ideal.ofBits_def, Ideal.ofBits_zero_f32, zero_add]
  unfold rowSumMasked
  refine Finset.sum_congr rfl fun j _ => ?_
  rw [idx_v25, v24_eq]

/-! ## The tail: the two exponentials, the quotient, the logarithm and the mean -/

/-- The similarity to the positive: e^{−d(A, P)(r)/τ}. -/
theorem v29_eq (x0 x1 : RefArg) (r : Fin 4096) :
    val_main_v29 (F := Ideal) x0 x1 (ix1 r)
      = Ideal.exp (Ideal.div (-(sqDist (mat x0) (mat x1) r)) (Ideal.ofBits .f32 0x3F000000#32)) := by
  rw [val_main_v29_apply, val_main_v28_apply, val_main_v26_apply, val_main_v27_apply, val_main_cst_4_apply, v2_eq,
    Ideal.ofBits_def, Ideal.hostUnary_exp_def, Ideal.hostDivf_def, Ideal.hostNegf_def, Ideal.negf_def]

/-- The similarity to the negatives: e^{−S(r)/τ}, S the masked row sum. -/
theorem v33_eq (x0 x2 : RefArg) (r : Fin 4096) :
    val_main_v33 (F := Ideal) x0 x2 (ix1 r)
      = Ideal.exp (Ideal.div (-(rowSumMasked (Ideal.ofBits .f32 0x40000000#32) (mat x0) (mat x2) r))
          (Ideal.ofBits .f32 0x3F000000#32)) := by
  rw [val_main_v33_apply, val_main_v32_apply, val_main_v30_apply, val_main_v31_apply, val_main_cst_5_apply, v25_eq,
    Ideal.ofBits_def, Ideal.hostUnary_exp_def, Ideal.hostDivf_def, Ideal.hostNegf_def, Ideal.negf_def]

/-- The loss of row r: −log( e^{−pd/τ} / (e^{−pd/τ} + e^{−S/τ} + ε) ). -/
theorem v39_eq (x0 x1 x2 : RefArg) (r : Fin 4096) :
    val_main_v39 (F := Ideal) x0 x1 x2 (ix1 r)
      = -(Ideal.log (Ideal.div
          (Ideal.exp (Ideal.div (-(sqDist (mat x0) (mat x1) r)) (Ideal.ofBits .f32 0x3F000000#32)))
          ((Ideal.exp (Ideal.div (-(sqDist (mat x0) (mat x1) r)) (Ideal.ofBits .f32 0x3F000000#32))
            + Ideal.exp (Ideal.div (-(rowSumMasked (Ideal.ofBits .f32 0x40000000#32) (mat x0) (mat x2) r))
                (Ideal.ofBits .f32 0x3F000000#32)))
            + Ideal.ofBits .f32 0x3089705F#32))) := by
  rw [val_main_v39_apply, val_main_v38_apply, val_main_v37_apply, val_main_v36_apply, val_main_v34_apply,
    val_main_v35_apply, val_main_cst_6_apply, v29_eq, v33_eq, Ideal.ofBits_def, Ideal.hostNegf_def, Ideal.negf_def,
    Ideal.hostUnary_log_def, Ideal.hostDivf_def, Ideal.addf_def, Ideal.addf_def]

/-- The sum of the rows' losses. -/
theorem v40_eq (x0 x1 x2 : RefArg) (i : S_.Idx) :
    val_main_v40 (F := Ideal) x0 x1 x2 i
      = ∑ r : Fin 4096, -(Ideal.log (Ideal.div
          (Ideal.exp (Ideal.div (-(sqDist (mat x0) (mat x1) r)) (Ideal.ofBits .f32 0x3F000000#32)))
          ((Ideal.exp (Ideal.div (-(sqDist (mat x0) (mat x1) r)) (Ideal.ofBits .f32 0x3F000000#32))
            + Ideal.exp (Ideal.div (-(rowSumMasked (Ideal.ofBits .f32 0x40000000#32) (mat x0) (mat x2) r))
                (Ideal.ofBits .f32 0x3F000000#32)))
            + Ideal.ofBits .f32 0x3089705F#32))) := by
  rw [val_main_v40_apply, val_main_cst_7_apply, Ideal.ofBits_def, Ideal.ofBits_zero_f32, zero_add,
    Cert.Idx1.sum_idx1]
  exact Finset.sum_congr rfl fun r _ => v39_eq x0 x1 x2 r

/-- THE RESULT: the reference's one output word, over the extended reals, is the masked loss of its three arguments. -/
theorem result_eq (x0 x1 x2 : (⟨S4096x256, .f32⟩ : BufTy).Contents (Elt Ideal)) :
    val_main_v41 (F := Ideal) x0 x1 x2 = fun _ => Cert.InfoNCE.lossMasked x0 x1 x2 := by
  funext i
  rw [val_main_v41_apply, val_main_cst_8_apply, v40_eq, Ideal.ofBits_def, Ideal.hostDivf_def]
  rfl

end Cert.ReferenceIdeal.RefValue

end
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibRowOps.lean ====
/-
  Reductions along the last axis, at the ideal values, read at an index given by coordinates. In an `[R, C]` matrix the
  sum and the maximum along the second axis at row `p` are the sum and the fold of `max` over `k : Fin C` of the entries
  `(p, k)` — the reduced index `p` with the coordinate `k` inserted on the dropped axis is `(p, k)` (`lift_row`,
  `rowSum_apply`, `rowMax_apply`: a kernel's `vector.multi_reduction`). In an `[A, B, C]` array the host's maximum along
  the last axis at `(a, b)` is the fold of `max`, from the initial value, over `k : Fin C` of the entries `(a, b, k)`
  (`lift_last3`, `hostMax_last3`: a `stablehlo.reduce` with a maximum body). All are stated for any extents.
-/
import Idealize.ShloMosaic.PureOps.Ideal.Laws
import Idealize.ShloMosaic.Lib.ValueIdx

noncomputable section

namespace Cert.RowOps

open Idealize.ShloMosaic Idealize.ShloMosaic.ValueIdx

/-- Row `p` with the column `k` inserted is the index `(p, k)`. -/
theorem lift_row {R C : ℕ} (h : (⟨2, ![R, C]⟩ : Shape).Reduces [1] ⟨1, ![R]⟩) (p : Fin R) (k : Fin C) :
    h.lift (ix1 p) k = ix2 p k := by
  funext c
  apply Fin.ext
  match c with
  | ⟨0, _⟩ => rfl
  | ⟨1, _⟩ => rfl

/-- In a rank-3 array, `(a, b)` with the coordinate `k` inserted on the last axis is `(a, b, k)`. -/
theorem lift_last3 {A B C : ℕ} (h : (⟨3, ![A, B, C]⟩ : Shape).Reduces [2] ⟨2, ![A, B]⟩) (a : Fin A) (b : Fin B) (k : Fin C) :
    h.lift (ix2 a b) k = ix3 a b k := by
  funext c
  apply Fin.ext
  match c with
  | ⟨0, _⟩ => rfl
  | ⟨1, _⟩ => rfl
  | ⟨2, _⟩ => rfl

/-- The host's maximum along the last axis of a rank-3 array, at `(a, b)`: the fold of `max`, from the initial value, over
    `k` of the entries `(a, b, k)`. -/
theorem hostMax_last3 {A B C : ℕ} (x : (⟨3, ![A, B, C]⟩ : Shape).Idx → EReal) (init : (⟨0, ![]⟩ : Shape).Idx → EReal)
    (h' : (⟨3, ![A, B, C]⟩ : Shape).ReducesTo [2] ⟨2, ![A, B]⟩) (h : (⟨3, ![A, B, C]⟩ : Shape).Reduces [2] ⟨2, ![A, B]⟩)
    (hu : 0 < (⟨0, ![]⟩ : Shape).numel) (a : Fin A) (b : Fin B) :
    Host.reduce (FloatOps.maximumf (F := Ideal) (φ := .f32)) x init h' hu (ix2 a b)
      = (Finset.univ : Finset (Fin C)).fold max (init (Shape.Idx.first hu)) (fun k => x (ix3 a b k)) := by
  refine (Host.reduce_eq_fold_single (FloatOps.maximumf (F := Ideal) (φ := .f32)) x init h' h hu (ix2 a b)).trans ?_
  exact congrArg (Finset.fold max (init (Shape.Idx.first hu)) · (Finset.univ : Finset (Fin C)))
    (funext fun k => congrArg x (lift_last3 h a b k))

/-- A sum along the second axis, at row `p`: the sum over the columns of the entries of that row. -/
theorem rowSum_apply {R C : ℕ} (src : FVec Ideal ⟨2, ![R, C]⟩ .f32) (acc : BitVec 32)
    (h : (⟨2, ![R, C]⟩ : Shape).Reduces [1] ⟨1, ![R]⟩) (hφ : FKind.Formats .f32) (hacc : acc = FKind.add.neutral .f32 hφ)
    (p : Fin R) :
    multiReduction .add [1] ⟨1, ![R]⟩ src acc h hφ hacc (ix1 p) = ∑ k : Fin C, src (ix2 p k) := by
  refine (Ideal.multiReduction_add_single src acc h hφ hacc (ix1 p)).trans ?_
  exact Finset.sum_congr rfl fun k _ => congrArg src (lift_row h p k)

/-- A maximum along the second axis, at row `p`: the fold of `max`, from the accumulator's value, over the columns. -/
theorem rowMax_apply {R C : ℕ} (src : FVec Ideal ⟨2, ![R, C]⟩ .f32) (acc : BitVec 32)
    (h : (⟨2, ![R, C]⟩ : Shape).Reduces [1] ⟨1, ![R]⟩) (hφ : FKind.Formats .f32) (hacc : acc = FKind.maximumf.neutral .f32 hφ)
    (p : Fin R) :
    multiReduction .maximumf [1] ⟨1, ![R]⟩ src acc h hφ hacc (ix1 p)
      = (Finset.univ : Finset (Fin C)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin C)))
    (funext fun k => congrArg src (lift_row h p k))

end Cert.RowOps

end
-- ==== Proof.LibColOps.lean ====
/-
  A sum along the FIRST axis, at the ideal values, read at an index given by coordinates. In an `[R, C]` matrix the sum
  along the first axis at column `q` is the sum over `k : Fin R` of the entries `(k, q)` — the reduced index `q` with the
  coordinate `k` inserted on the dropped axis is `(k, q)` (`lift_col`, `colSum_apply`: a kernel's
  `vector.multi_reduction <add>` over axis 0, as a `jnp.sum(axis=0)` or the second step of a two-step total sum
  lowers). Stated for any extents.
-/
import Idealize.ShloMosaic.PureOps.Ideal.Laws
import Idealize.ShloMosaic.Lib.ValueIdx

noncomputable section

namespace Cert.ColOps

open Idealize.ShloMosaic Idealize.ShloMosaic.ValueIdx

/-- Column `q` with the row `k` inserted is the index `(k, q)`. -/
theorem lift_col {R C : ℕ} (h : (⟨2, ![R, C]⟩ : Shape).Reduces [0] ⟨1, ![C]⟩) (q : Fin C) (k : Fin R) :
    h.lift (ix1 q) k = ix2 k q := by
  funext c
  apply Fin.ext
  match c with
  | ⟨0, _⟩ => rfl
  | ⟨1, _⟩ => rfl

/-- A sum along the first axis, at column `q`: the sum over the rows of the entries of that column. -/
theorem colSum_apply {R C : ℕ} (src : FVec Ideal ⟨2, ![R, C]⟩ .f32) (acc : BitVec 32)
    (h : (⟨2, ![R, C]⟩ : Shape).Reduces [0] ⟨1, ![C]⟩) (hφ : FKind.Formats .f32) (hacc : acc = FKind.add.neutral .f32 hφ)
    (q : Fin C) :
    multiReduction .add [0] ⟨1, ![C]⟩ src acc h hφ hacc (ix1 q) = ∑ k : Fin R, src (ix2 k q) := by
  refine (Ideal.multiReduction_add_single src acc h hφ hacc (ix1 q)).trans ?_
  exact Finset.sum_congr rfl fun k _ => congrArg src (lift_col h q k)

end Cert.ColOps

end
-- ==== Proof.KernelValue.lean ====
/-
  The kernel body's three payloads read entry by entry at the ideal values.

  The body loads the three whole 4096 × 256 arrays x0 (anchors), x1 (positives), x2 (negatives). Every row quantity
  is kept as a 4096 × 1 column: entry (r, 0) of a column is the quantity of row r.
    * a row sum of a 4096 × 256 array, cast to a column, reads at (r, 0) the sum over k of the entries (r, k);
    * the column sums of x0 (a sum over the first axis), cast to one row and repeated down the rows, read at (r, k)
      the sum over j of x0 (j, k): the product with x0 summed along the row is Σ_k x0 (r, k) · Σ_j x0 (j, k);
    * the total of the squared norms (the column summed over its 4096 entries into one number, repeated down the rows)
      reads Σ_j q(j) at every row.
  So the first payload is e^{−d(x0, x1)(r)/τ}, the second adds e^{−S(r)/τ} with S the collapsed row sum, and the third,
  the stored 1 × 1 block, is the mean over the rows of −log(first / (second + ε)): the collapsed loss.
-/
import proofs.«167277_j88639535055182_2_alg».proof.Proof.Gen.KernelIdeal.Skeleton
import proofs.«167277_j88639535055182_2_alg».proof.Proof.Spec
import proofs.«167277_j88639535055182_2_alg».proof.Proof.LibColumn
import proofs.«167277_j88639535055182_2_alg».proof.Proof.LibRowOps
import proofs.«167277_j88639535055182_2_alg».proof.Proof.LibColOps
import Idealize.ShloMosaic.Lib.ValueLayout
import Idealize.ShloMosaic.Lib.ValueIdx
import Idealize.ShloMosaic.PureOps.Ideal.Laws

noncomputable section

namespace Cert.KernelIdeal.KernelValue

open Cert.KernelIdeal Cert.KernelIdeal.Gen Idealize.ShloMosaic Idealize.ShloMosaic.ValueIdx Cert.InfoNCE

/-- A row sum cast to a column reads, at `(r, u)`, the sum over the columns of row `r`. -/
theorem rowSum_col (y : FVec Ideal S4096x256 .f32) (h : S4096x256.Reduces [1] S4096) (hφ : FKind.Formats .f32)
    (hacc : (0x00000000#32 : BitVec 32) = 0x00000000#32) (hc : S4096.ShapeCasts S4096x1) (r : Fin 4096) (u : Fin 1) :
    shapeCast S4096x1 (multiReduction .add [1] S4096 y 0x00000000#32 h hφ hacc) hc (ix2 r u) = ∑ k : Fin 256, y (ix2 r k) :=
  (Cert.Column.shapeCast_a_a1_apply _ hc r u).trans (Cert.RowOps.rowSum_apply y _ h hφ hacc r)

/-- The squared distance between rows `r` of two arrays, as the column the body keeps it in. -/
theorem sqDist_col (x y : FVec Ideal S4096x256 .f32) (h : S4096x256.Reduces [1] S4096) (hφ : FKind.Formats .f32)
    (hacc : (0x00000000#32 : BitVec 32) = 0x00000000#32) (hc : S4096.ShapeCasts S4096x1) (r : Fin 4096) (u : Fin 1) :
    shapeCast S4096x1 (multiReduction .add [1] S4096 (mulf (subf x y) (subf x y)) 0x00000000#32 h hφ hacc) hc (ix2 r u)
      = sqDist (mat x) (mat y) r :=
  rowSum_col _ h hφ hacc hc r u

/-- The squared norm of row `r`, as a column. -/
theorem sqNorm_col (x : FVec Ideal S4096x256 .f32) (h : S4096x256.Reduces [1] S4096) (hφ : FKind.Formats .f32)
    (hacc : (0x00000000#32 : BitVec 32) = 0x00000000#32) (hc : S4096.ShapeCasts S4096x1) (r : Fin 4096) (u : Fin 1) :
    shapeCast S4096x1 (multiReduction .add [1] S4096 (mulf x x) 0x00000000#32 h hφ hacc) hc (ix2 r u)
      = sqNorm (mat x) r :=
  rowSum_col _ h hφ hacc hc r u

/-- A column summed over its rows into one number, as a 1 × 1 array repeated down the rows: every row reads the total. -/
theorem total_col (y : FVec Ideal S4096x1 .f32) (h : S4096x1.Reduces [0] S1) (hφ : FKind.Formats .f32)
    (hacc : (0x00000000#32 : BitVec 32) = 0x00000000#32) (hc : S1.ShapeCasts S1x1) (hb : S1x1.Broadcasts S4096x1)
    (r : Fin 4096) (u : Fin 1) :
    broadcastTo S4096x1 (shapeCast S1x1 (multiReduction .add [0] S1 y 0x00000000#32 h hφ hacc) hc) hb (ix2 r u)
      = ∑ j : Fin 4096, y (ix2 j u) :=
  (broadcastTo_1b_ab_apply _ hb r u).trans
    ((Cert.Column.shapeCast_a_a1_apply _ hc (0 : Fin 1) u).trans
      ((Cert.ColOps.colSum_apply y _ h hφ hacc (0 : Fin 1)).trans
        (Finset.sum_congr rfl fun j _ => congrArg y (by rw [Subsingleton.elim u 0]))))

/-- The column sums of an array, as one row repeated down the rows: entry `(r, k)` is the sum of column `k`. -/
theorem colSums_rows (x : FVec Ideal S4096x256 .f32) (h : S4096x256.Reduces [0] S256) (hφ : FKind.Formats .f32)
    (hacc : (0x00000000#32 : BitVec 32) = 0x00000000#32) (hc : S256.ShapeCasts S1x256) (hb : S1x256.Broadcasts S4096x256)
    (r : Fin 4096) (k : Fin 256) :
    broadcastTo S4096x256 (shapeCast S1x256 (multiReduction .add [0] S256 x 0x00000000#32 h hφ hacc) hc) hb (ix2 r k)
      = ∑ j : Fin 4096, x (ix2 j k) :=
  (broadcastTo_1b_ab_apply _ hb r k).trans
    ((shapeCast_a_1a_apply _ hc (0 : Fin 1) k).trans (Cert.ColOps.colSum_apply x _ h hφ hacc k))

/-- A column summed over its rows into one number, as a 1 × 1 array: its one entry is the total of the column. -/
theorem total_one (y : FVec Ideal S4096x1 .f32) (h : S4096x1.Reduces [0] S1) (hφ : FKind.Formats .f32)
    (hacc : (0x00000000#32 : BitVec 32) = 0x00000000#32) (hc : S1.ShapeCasts S1x1) (u1 u2 : Fin 1) :
    shapeCast S1x1 (multiReduction .add [0] S1 y 0x00000000#32 h hφ hacc) hc (ix2 u1 u2) = ∑ j : Fin 4096, y (ix2 j u1) :=
  (Cert.Column.shapeCast_a_a1_apply _ hc u1 u2).trans (Cert.ColOps.colSum_apply y _ h hφ hacc u1)

/-- The total of the squared norms, repeated down the rows. -/
theorem totalSq_col (x : FVec Ideal S4096x256 .f32) (h1 : S4096x256.Reduces [1] S4096) (h0 : S4096x1.Reduces [0] S1)
    (hφ : FKind.Formats .f32) (hacc : (0x00000000#32 : BitVec 32) = 0x00000000#32)
    (hc : S4096.ShapeCasts S4096x1) (hc1 : S1.ShapeCasts S1x1) (hb : S1x1.Broadcasts S4096x1) (r : Fin 4096) (u : Fin 1) :
    broadcastTo S4096x1 (shapeCast S1x1 (multiReduction .add [0] S1
        (shapeCast S4096x1 (multiReduction .add [1] S4096 (mulf x x) 0x00000000#32 h1 hφ hacc) hc)
        0x00000000#32 h0 hφ hacc) hc1) hb (ix2 r u)
      = ∑ j : Fin 4096, sqNorm (mat x) j :=
  (total_col _ h0 hφ hacc hc1 hb r u).trans (Finset.sum_congr rfl fun j _ => sqNorm_col x h1 hφ hacc hc j u)

/-- Row `r` of `x` against the column sums of `x`: `Σ_k x (r, k) · Σ_j x (j, k)`, as a column. -/
theorem matvec_col (x : FVec Ideal S4096x256 .f32) (h1 : S4096x256.Reduces [1] S4096) (h0 : S4096x256.Reduces [0] S256)
    (hφ : FKind.Formats .f32) (hacc : (0x00000000#32 : BitVec 32) = 0x00000000#32)
    (hc : S4096.ShapeCasts S4096x1) (hcr : S256.ShapeCasts S1x256) (hb : S1x256.Broadcasts S4096x256) (r : Fin 4096) (u : Fin 1) :
    shapeCast S4096x1 (multiReduction .add [1] S4096
        (mulf x (broadcastTo S4096x256 (shapeCast S1x256 (multiReduction .add [0] S256 x 0x00000000#32 h0 hφ hacc) hcr) hb))
        0x00000000#32 h1 hφ hacc) hc (ix2 r u)
      = ∑ k : Fin 256, mat x r k * ∑ j : Fin 4096, mat x j k :=
  (rowSum_col _ h1 hφ hacc hc r u).trans
    (Finset.sum_congr rfl fun k _ => congrArg (x (ix2 r k) * ·) (colSums_rows x h0 hφ hacc hcr hb r k))

/-! ## The payloads -/

/-- The first payload: at row `r`, `e^{−d(x0, x1)(r)/τ}` (the negation is the body's `0 − ·`). -/
theorem pay2_apply (x0 x1 : Vec Ideal S4096x256 .f32) (r : Fin 4096) (u : Fin 1) :
    k0_pay2 (F := Ideal) x0 x1 (ix2 r u)
      = Ideal.exp (Ideal.div (-(sqDist (mat x0) (mat x1) r)) (Ideal.ofBits .f32 0x3F000000#32)) := by
  unfold k0_pay2
  show Ideal.exp (Ideal.div (Ideal.ofBits .f32 0x00000000#32 - shapeCast S4096x1 _ _ (ix2 r u))
    (Ideal.ofBits .f32 0x3F000000#32)) = _
  rw [sqDist_col, Ideal.ofBits_zero_f32, zero_sub]

/-- The second payload: the first plus `e^{−S(r)/τ}`, `S` the collapsed row sum
    `4096·q(r) + Σ_j q(j) − 2·Σ_k x0 (r, k)·Σ_j x0 (j, k) + d(x0, x2)(r)`. -/
theorem pay3_apply (x0 x1 x2 : Vec Ideal S4096x256 .f32) (r : Fin 4096) (u : Fin 1) :
    k0_pay3 (F := Ideal) x0 x1 x2 (ix2 r u)
      = Ideal.exp (Ideal.div (-(sqDist (mat x0) (mat x1) r)) (Ideal.ofBits .f32 0x3F000000#32))
        + Ideal.exp (Ideal.div (-(rowSumCollapsed (Ideal.ofBits .f32 0x45800000#32) (Ideal.ofBits .f32 0x40000000#32)
            (mat x0) (mat x2) r)) (Ideal.ofBits .f32 0x3F000000#32)) := by
  unfold k0_pay3
  show k0_pay2 (F := Ideal) x0 x1 (ix2 r u) + Ideal.exp (Ideal.div (Ideal.ofBits .f32 0x00000000#32
      - ((((Ideal.ofBits .f32 0x45800000#32 * shapeCast S4096x1 _ _ (ix2 r u)) + broadcastTo S4096x1 _ _ (ix2 r u))
          - (Ideal.ofBits .f32 0x40000000#32 * shapeCast S4096x1 _ _ (ix2 r u))) + shapeCast S4096x1 _ _ (ix2 r u)))
    (Ideal.ofBits .f32 0x3F000000#32)) = _
  rw [pay2_apply, sqDist_col, totalSq_col, matvec_col, sqNorm_col, Ideal.ofBits_zero_f32, zero_sub]
  rfl

/-- The stored payload: the mean over the rows of `−log (first / (second + ε))`. -/
theorem pay1_apply (v34 v40 : FVec Ideal S4096x1 .f32) (u1 u2 : Fin 1) :
    k0_pay1 (F := Ideal) v34 v40 (ix2 u1 u2)
      = Ideal.div (∑ r : Fin 4096, -(Ideal.log (Ideal.div (v34 (ix2 r u1))
          (v40 (ix2 r u1) + Ideal.ofBits .f32 0x3089705F#32)))) (Ideal.ofBits .f32 0x45800000#32) := by
  unfold k0_pay1
  show Ideal.div (shapeCast S1x1 (multiReduction (F := Ideal) (φ := .f32) .add [0] S1 _ 0x00000000#32 _ _ _) _ (ix2 u1 u2))
    (Ideal.ofBits .f32 0x45800000#32) = _
  rw [total_one]
  refine congrArg (Ideal.div · _) (Finset.sum_congr rfl fun j _ => ?_)
  show Ideal.ofBits .f32 0x00000000#32 - Ideal.log (Ideal.div (v34 (ix2 j u1)) (v40 (ix2 j u1) + Ideal.ofBits .f32 0x3089705F#32)) = _
  rw [Ideal.ofBits_zero_f32, zero_sub]

end Cert.KernelIdeal.KernelValue

end
-- ==== Proof.KernelRun.lean ====
/-
  The kernel program's result as a function of its argument arrays.

  The one pallas_call has a single grid point; every window's block is its whole array (block index 0 on both axes),
  so the blocks the body loads are the three argument arrays themselves and the 1 × 1 block it stores is the whole
  output array. What the point writes back is therefore the collapsed loss of the arguments at the block's one entry,
  and the block covers the array. The host line after the call reshapes the 1 × 1 array to a scalar: the one entry again.
-/
import proofs.«167277_j88639535055182_2_alg».proof.Proof.Gen.KernelIdeal.Frame
import proofs.«167277_j88639535055182_2_alg».proof.Proof.KernelValue
import Idealize.ShloMosaic.Lib.Pipeline.Value
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe Idealize.ShloMosaic.ValueIdx Cert.InfoNCE
open Idealize.SL.Sem

variable (m : (ℓ : Loc nD τ sig) → Buf (Elt Ideal) ℓ) (ρ : Dev nD → PrngReg)

theorem offsets_zero : (![0, 0] : Fin 2 → Nat) = fun _ => 0 := funext fun a => by fin_cases a <;> rfl

/-- The stored block, from the three loaded arrays: the collapsed loss at its one entry. -/
theorem out_eq (x0 x1 x2 : Vec Ideal S4096x256 .f32) :
    out0_3 (F := Ideal) x0 x1 x2 = fun _ => lossCollapsed x0 x1 x2 := by
  unfold out0_3
  rw [View.canon_unit_zero offsets_zero]
  simp only [View.ld_unit_zero (S := S4096x256) offsets_zero]
  funext j
  obtain ⟨u1, u2, rfl⟩ : ∃ (u1 u2 : Fin 1), j = ix2 u1 u2 := ⟨j 0, j 1, eq_ix2 j⟩
  rw [KernelValue.pay1_apply]
  refine congrArg (Ideal.div · _) (Finset.sum_congr rfl fun r _ => ?_)
  rw [KernelValue.pay2_apply, KernelValue.pay3_apply]

/-- Every window's block index is 0 on both axes at the one grid point. -/
theorem index_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The anchors' block is the anchors' array. -/
theorem iblk0_eq (c : Dev nD) (t : Fin cfg0.N) : (iblk m c 0 t : S4096x256.Idx → EReal) = V m c main_arg0 := by
  obtain ⟨e0, e1, -⟩ := index_zero t
  funext j
  show V m c main_arg0 (((cfg0.win 0).blk t).view.emb j) = V m c main_arg0 j
  refine congrArg _ (funext fun a => Fin.ext ?_)
  match a with
  | ⟨0, _⟩ => show win0_0.index t (0 : Fin 2) * 4096 + 1 * (j 0).val = (j 0).val; omega
  | ⟨1, _⟩ => show win0_0.index t (1 : Fin 2) * 256 + 1 * (j 1).val = (j 1).val; omega

/-- The positives' block is the positives' array. -/
theorem iblk1_eq (c : Dev nD) (t : Fin cfg0.N) : (iblk m c 1 t : S4096x256.Idx → EReal) = V m c main_arg1 := by
  obtain ⟨-, -, e0, e1, -⟩ := index_zero t
  funext j
  show V m c main_arg1 (((cfg0.win 1).blk t).view.emb j) = V m c main_arg1 j
  refine congrArg _ (funext fun a => Fin.ext ?_)
  match a with
  | ⟨0, _⟩ => show win0_1.index t (0 : Fin 2) * 4096 + 1 * (j 0).val = (j 0).val; omega
  | ⟨1, _⟩ => show win0_1.index t (1 : Fin 2) * 256 + 1 * (j 1).val = (j 1).val; omega

/-- The negatives' block is the negatives' array. -/
theorem iblk2_eq (c : Dev nD) (t : Fin cfg0.N) : (iblk m c 2 t : S4096x256.Idx → EReal) = V m c main_arg2 := by
  obtain ⟨-, -, -, -, e0, e1, -⟩ := index_zero t
  funext j
  show V m c main_arg2 (((cfg0.win 2).blk t).view.emb j) = V m c main_arg2 j
  refine congrArg _ (funext fun a => Fin.ext ?_)
  match a with
  | ⟨0, _⟩ => show win0_2.index t (0 : Fin 2) * 4096 + 1 * (j 0).val = (j 0).val; omega
  | ⟨1, _⟩ => show win0_2.index t (1 : Fin 2) * 256 + 1 * (j 1).val = (j 1).val; omega

/-- The output array after the run, as a function of the arguments at the region's entry: the collapsed loss at its one
    entry. -/
def result (c : Dev nD) : S1x1.Idx → EReal :=
  fun _ => lossCollapsed (V m c main_arg0) (V m c main_arg1) (V m c main_arg2)

/-- What the grid point writes back is the block of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3, out_eq (iblk m c 0 t) (iblk m c 1 t) (iblk m c 2 t), iblk0_eq, iblk1_eq, iblk2_eq]
  rfl

/-- An index of the output array is in the point's block iff each coordinate is in the block's range. -/
theorem mem_blk (t : Fin cfg0.N) (i : S1x1.Idx) :
    i ∈ ((cfg0.win 3).blk t).view.set ↔ ∀ a : Fin 2, win0_3.index t a * S1x1.size a ≤ (i a).val ∧ (i a).val < win0_3.index t a * S1x1.size a + S1x1.size a := by
  show i ∈ ((View.whole main_v0).slice (win0_3.rect t)).set ↔ _
  rw [View.set_slice_whole, Rect.mem_set_unit]
  exact Iff.rfl

/-- The one block covers the output array. -/
theorem cover (i : S1x1.Idx) : ∃ t : Fin cfg0.N, (cfg0.win 3).flush t = true ∧ i ∈ ((cfg0.win 3).blk t).view.set := by
  refine ⟨t0_0, flush0_3 t0_0, ?_⟩
  obtain ⟨-, -, -, -, -, -, e0, e1⟩ := index_zero t0_0
  rw [mem_blk]
  intro a
  match a with
  | ⟨0, _⟩ => show win0_3.index t0_0 (0 : Fin 2) * 1 ≤ (i 0).val ∧ (i 0).val < win0_3.index t0_0 (0 : Fin 2) * 1 + 1; have h : (i 0).val < 1 := (i 0).isLt; omega
  | ⟨1, _⟩ => show win0_3.index t0_0 (1 : Fin 2) * 1 ≤ (i 1).val ∧ (i 1).val < win0_3.index t0_0 (1 : Fin 2) * 1 + 1; have h : (i 1).val < 1 := (i 1).isLt; omega

/-- The output array after the run is `result`. -/
theorem final (c : Dev nD) : (dats m 0 c).arrAt 3 cfg0.N = result m c :=
  (dats m 0 c).arrAt_eq_of_cover 3 (result m c) (fun t _ => flushed_eq m c t) cover

/-- The result buffer after the host reshape of the 1 × 1 output array to a scalar: the collapsed loss of the three
    argument arrays as the program found them. -/
theorem tail_eq (c : Dev nD) :
    Pipeline.afterTail₀ cfgs (dats m) 0 (V0 m) [hostOps1] c main_v1
      = fun _ => lossCollapsed (m ((c : Thread nD τ).loc main_arg0)) (m ((c : Thread nD τ).loc main_arg1))
          (m ((c : Thread nD τ).loc main_arg2)) := by
  unfold Pipeline.afterTail₀
  show StableHlo.after hostOps1 _ (Proc.devRef .tc main_v1) = _
  after_results
  rw [show Pipeline.withArrays (cfgs 0).spec c (V0 m c) (fun w => (dats m 0 c).arrAt w (cfgs 0).N) (Proc.tc.devRef main_v0)
      = result m c from (Pipeline.withArrays_arr spec0 launch0.win.arr_inj c _ _ 3).trans (final m c)]
  funext i
  rfl

/-- THE RUN: every weakly fair execution of the kernel program terminates without a fault, the result buffer holding the
    collapsed loss of the argument arrays and the argument arrays unchanged. -/
theorem run : θ_run defs (onTc (τ := τ) (main (F := Ideal))) ⟨m, fun _ => 0, ρ⟩ (fun r => ∀ c : Dev nD,
      r.2.mem ((c.tc : Thread nD τ).loc main_v1)
        = (fun _ => lossCollapsed (m ((c : Thread nD τ).loc main_arg0)) (m ((c : Thread nD τ).loc main_arg1))
            (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KernelRun

end
-- ==== Proof.lean ====
/-
  The distance-InfoNCE kernel against its reference, over the extended reals.

  The kernel never forms the 4096 × 4096 matrix of pairwise squared distances between the anchors: the sum of row r of
  that matrix with the diagonal entry replaced by the distance to the negative,
      S(r) = Σ_j [r = j ? d(A, N)(j) : q(r) + q(j) − 2·Σ_k A r k · A j k],
  is collapsed through the column sums of A to
      4096·q(r) + Σ_j q(j) − 2·Σ_k A r k · (Σ_j A j k) + d(A, N)(r),
  and the reference forms the pairs and sums them. The two agree when the anchors and the negatives are real numbers
  (the replaced diagonal entry q(r) + q(r) − 2·q(r) is then zero, and the double sum factors), which is what the
  precondition gives; from the row sums on, both programs take the same exponentials, quotient, logarithm and mean.

  The kernel program's result is read off its generated frame run: one grid point, whole-array blocks, one store, then
  the host reshape of the 1 × 1 array (Proof/KernelRun.lean over Proof/KernelValue.lean's payloads). The reference's
  result is its generated run, read stage by stage (Proof/RefValue.lean). Proof/Spec.lean states the two arrangements and
  proves the law; Proof/Finite.lean reads "every entry is a real number" off the precondition. The ideal pass rewrote
  nothing, so there is nothing to preserve.
-/
import proofs.«167277_j88639535055182_2_alg».proof.Defs
import proofs.«167277_j88639535055182_2_alg».proof.Proof.Gen.Kernel
import proofs.«167277_j88639535055182_2_alg».proof.Proof.Gen.Kernel.Skeleton
import proofs.«167277_j88639535055182_2_alg».proof.Proof.Gen.Kernel.Launch
import proofs.«167277_j88639535055182_2_alg».proof.Proof.Gen.Kernel.Points
import proofs.«167277_j88639535055182_2_alg».proof.Proof.Gen.Kernel.Frame
import proofs.«167277_j88639535055182_2_alg».proof.Proof.Gen.KernelIdeal
import proofs.«167277_j88639535055182_2_alg».proof.Proof.Gen.KernelIdeal.Skeleton
import proofs.«167277_j88639535055182_2_alg».proof.Proof.Gen.KernelIdeal.Launch
import proofs.«167277_j88639535055182_2_alg».proof.Proof.Gen.KernelIdeal.Points
import proofs.«167277_j88639535055182_2_alg».proof.Proof.Gen.KernelIdeal.Frame
import proofs.«167277_j88639535055182_2_alg».proof.Proof.Gen.ReferenceIdeal
import proofs.«167277_j88639535055182_2_alg».proof.Proof.Gen.Pre_finite_inputs
import proofs.«167277_j88639535055182_2_alg».proof.Proof.Gen.ReferenceIdeal.Run
import proofs.«167277_j88639535055182_2_alg».proof.Proof.Gen.ReferenceIdeal.Read
import proofs.«167277_j88639535055182_2_alg».proof.Proof.Spec
import proofs.«167277_j88639535055182_2_alg».proof.Proof.Finite
import proofs.«167277_j88639535055182_2_alg».proof.Proof.RefValue
import proofs.«167277_j88639535055182_2_alg».proof.Proof.KernelRun
import Idealize.ShloMosaic.Adequacy
import Idealize.ShloMosaic.Init

noncomputable section

namespace Cert.Proof

open Idealize.ShloMosaic Idealize.SL.Sem

/-- The reference's result at arrays `a' p' n'` equal to arrays `a p n` of which the precondition holds is the collapsed
    loss of `a p n`: the reference computes the masked loss, and on real entries the two arrangements agree. Stated over
    plain arrays, so that each program's memory enters by an equation of its own. -/
theorem reference_is_collapsed (a p n a' p' n' : (⟨2, ![4096, 256]⟩ : Shape).Idx → EReal)
    (ea : a' = a) (ep : p' = p) (en : n' = n)
    (hfin : Cert.Pre_finite_inputs.fn (F := Ideal) a p n = fun _ => 1#1) :
    Cert.ReferenceIdeal.Read.val_main_v41 (F := Ideal) a' p' n' = fun _ => Cert.InfoNCE.lossCollapsed a p n := by
  subst ea ep en
  obtain ⟨ha, -, hn⟩ := Cert.Finite.real_of_finite_inputs a' p' n' hfin
  rw [Cert.ReferenceIdeal.RefValue.result_eq, Cert.InfoNCE.loss_eq a' p' n' ha hn]

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result buffer at the collapsed loss of the kernel program's argument arrays. -/
theorem algebraic : Cert.algebraic_KernelIdeal_ReferenceIdeal := fun m ρ m' ρ' hpre hagree =>
  ⟨fun c => fun _ => Cert.InfoNCE.lossCollapsed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelRun.run m ρ,
    (θ_run Cert.ReferenceIdeal.defs _ _).mono (fun _ h c =>
      ⟨(h c).1.trans ((Cert.ReferenceIdeal.Read.val_main_v41_eq _ _ _).trans
          (reference_is_collapsed _ _ _ _ _ _ (hagree c).1 (hagree c).2.1 (hagree c).2.2 (hpre c))),
        (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
